-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S128x16080 .f32 .bf16
  ∧ IdealRules.truncf_extf.Statement Cert.KernelIdeal.S16080x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x16080 : Shape := ⟨3, ![64, 64, 16080]⟩
abbrev S128x16080 : Shape := ⟨2, ![128, 16080]⟩
abbrev S128 : Shape := ⟨1, ![128]⟩
abbrev S64x128x16 : Shape := ⟨3, ![64, 128, 16]⟩
abbrev S_ : Shape := ⟨0, ![]⟩

class Facts : Prop where
  bcast_S_S64x64x16080 : S_.BroadcastsInDim S64x64x16080 (![] : Fin 0 → Fin S64x64x16080.rank)
  reducesTo_S64x64x16080_S_d0_1_2 : S64x64x16080.ReducesTo [0, 1, 2] S_
  h_S_ : 0 < S_.numel
  bcast_S_S128x16080 : S_.BroadcastsInDim S128x16080 (![] : Fin 0 → Fin S128x16080.rank)
  reducesTo_S128x16080_S_d0_1 : S128x16080.ReducesTo [0, 1] S_
  bcast_S_S128 : S_.BroadcastsInDim S128 (![] : Fin 0 → Fin S128.rank)
  reducesTo_S128_S_d0 : S128.ReducesTo [0] S_
  bcast_S_S64x128x16 : S_.BroadcastsInDim S64x128x16 (![] : Fin 0 → Fin S64x128x16.rank)
  reducesTo_S64x128x16_S_d0_1_2 : S64x128x16.ReducesTo [0, 1, 2] S_

variable [Facts]

def fn_part1 {F : FTy → Type} [FloatOps F] (main_v13 : IVec S_ 1) (main_v16 : IVec S64x128x16 1) : IVec S_ 1 :=
  let main_c_5 : IVec S_ 1 := constantI S_ 1 1#1
  let main_v17 : IVec S_ 1 := (fun x v => Host.reduce IntOp.andi x v reducesTo_S64x128x16_S_d0_1_2 h_S_) main_v16 main_c_5
  let main_v18 : IVec S_ 1 := andi main_v13 main_v17
  main_v18

def fn {F : FTy → Type} [FloatOps F] (main_arg0 : FVec F S64x64x16080 .f32) (main_arg1 : FVec F S128x16080 .f32) (main_arg2 : FVec F S128 .f32) (main_arg3 : FVec F S64x128x16 .f32) : IVec S_ 1 :=
  let main_v0 : FVec F S64x64x16080 .f32 := Host.absf main_arg0
  let main_cst : FVec F S_ .f32 := constant S_ .f32 0x7F800000#32
  let main_v1 : FVec F S64x64x16080 .f32 := broadcastInDim S64x64x16080 ![] bcast_S_S64x64x16080 main_cst
  let main_v2 : IVec S64x64x16080 1 := cmpf .olt main_v0 main_v1
  let main_c : IVec S_ 1 := constantI S_ 1 1#1
  let main_v3 : IVec S_ 1 := (fun x v => Host.reduce IntOp.andi x v reducesTo_S64x64x16080_S_d0_1_2 h_S_) main_v2 main_c
  let main_v4 : FVec F S128x16080 .f32 := Host.absf main_arg1
  let main_cst_0 : FVec F S_ .f32 := constant S_ .f32 0x7F800000#32
  let main_v5 : FVec F S128x16080 .f32 := broadcastInDim S128x16080 ![] bcast_S_S128x16080 main_cst_0
  let main_v6 : IVec S128x16080 1 := cmpf .olt main_v4 main_v5
  let main_c_1 : IVec S_ 1 := constantI S_ 1 1#1
  let main_v7 : IVec S_ 1 := (fun x v => Host.reduce IntOp.andi x v reducesTo_S128x16080_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128x16 .f32 := Host.absf main_arg3
  let main_cst_4 : FVec F S_ .f32 := constant S_ .f32 0x7F800000#32
  let main_v15 : FVec F S64x128x16 .f32 := broadcastInDim S64x128x16 ![] bcast_S_S64x128x16 main_cst_4
  let main_v16 : IVec S64x128x16 1 := cmpf .olt main_v14 main_v15
  fn_part1 (F := F) main_v13 main_v16
-- ==== Kernel.lean ====
abbrev S64x64x16080 : Shape := ⟨3, ![64, 64, 16080]⟩
abbrev S128x16080 : Shape := ⟨2, ![128, 16080]⟩
abbrev S128 : Shape := ⟨1, ![128]⟩
abbrev S64x128x16 : Shape := ⟨3, ![64, 128, 16]⟩
abbrev S16080x128 : Shape := ⟨2, ![16080, 128]⟩
abbrev S1x128 : Shape := ⟨2, ![1, 128]⟩
abbrev S64x16x128 : Shape := ⟨3, ![64, 16, 128]⟩
abbrev S64x64x128 : Shape := ⟨3, ![64, 64, 128]⟩
abbrev S2x64x16080 : Shape := ⟨3, ![2, 64, 16080]⟩
abbrev S2x64x128 : Shape := ⟨3, ![2, 64, 128]⟩
abbrev S128x128 : Shape := ⟨2, ![128, 128]⟩
abbrev S2x64x1x128 : Shape := ⟨4, ![2, 64, 1, 128]⟩
abbrev S1x64x16x128 : Shape := ⟨4, ![1, 64, 16, 128]⟩
abbrev S2x64x16x128 : Shape := ⟨4, ![2, 64, 16, 128]⟩

abbrev nBuf : Space → Nat
  | .hbm => 9
  | .vmem => 9
  | .smem => 0
  | _ => 0

abbrev bufTy : (tb : Table) → Fin (tcTables nBuf tb) → BufTy
  | .hbm, ⟨0, _⟩ => ⟨S64x64x16080, .f32⟩
  | .hbm, ⟨1, _⟩ => ⟨S128x16080, .f32⟩
  | .hbm, ⟨2, _⟩ => ⟨S128, .f32⟩
  | .hbm, ⟨3, _⟩ => ⟨S64x128x16, .f32⟩
  | .hbm, ⟨4, _⟩ => ⟨S16080x128, .f32⟩
  | .hbm, ⟨5, _⟩ => ⟨S1x128, .f32⟩
  | .hbm, ⟨6, _⟩ => ⟨S64x16x128, .f32⟩
  | .hbm, ⟨7, _⟩ => ⟨S64x64x128, .f32⟩
  | .hbm, ⟨8, _⟩ => ⟨S64x64x128, .f32⟩
  | .local _ .vmem, ⟨0, _⟩ => ⟨S2x64x16080, .f32⟩
  | .local _ .vmem, ⟨1, _⟩ => ⟨S2x64x16080, .f32⟩
  | .local _ .vmem, ⟨2, _⟩ => ⟨S16080x128, .f32⟩
  | .local _ .vmem, ⟨3, _⟩ => ⟨S1x128, .f32⟩
  | .local _ .vmem, ⟨4, _⟩ => ⟨S64x16x128, .f32⟩
  | .local _ .vmem, ⟨5, _⟩ => ⟨S2x64x128, .f32⟩
  | .local _ .vmem, ⟨6, _⟩ => ⟨S2x64x128, .f32⟩
  | .local _ .vmem, ⟨7, _⟩ => ⟨S2x64x128, .f32⟩
  | .local _ .vmem, ⟨8, _⟩ => ⟨S2x64x128, .f32⟩
  | _, _ => ⟨S64x64x16080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x16080 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16080x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x16080_S16080x128_1_0 : S128x16080.Transposes [1, 0] S16080x128
  shapeCasts_S128_S1x128 : S128.ShapeCasts S1x128
  transposes_S64x128x16_S64x16x128_0_2_1 : S64x128x16.Transposes [0, 2, 1] S64x16x128
  inb_S2x64x16080_S2x64x16080_0_0_0 : ∀ a, (![0, 0, 0] : Fin 3 → Nat) a + S2x64x16080.size a ≤ S2x64x16080.size a
  h_S2x64x16080 : 0 < S2x64x16080.numel
  shapeCasts_S2x64x16080_S128x16080 : S2x64x16080.ShapeCasts S128x16080
  inb_S16080x128_S16080x128_0_0 : ∀ a, (![0, 0] : Fin 2 → Nat) a + S16080x128.size a ≤ S16080x128.size a
  h_S16080x128 : 0 < S16080x128.numel
  shapeCasts_S16080x128_S16080x128 : S16080x128.ShapeCasts S16080x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S128x128_S2x64x128 : S128x128.ShapeCasts S2x64x128
  inb_S2x64x128_S2x64x128_0_0_0 : ∀ a, (![0, 0, 0] : Fin 3 → Nat) a + S2x64x128.size a ≤ S2x64x128.size a
  h_S2x64x128 : 0 < S2x64x128.numel
  inb_S64x16x128_S64x16x128_0_0_0 : ∀ a, (![0, 0, 0] : Fin 3 → Nat) a + S64x16x128.size a ≤ S64x16x128.size a
  h_S64x16x128 : 0 < S64x16x128.numel
  shapeCasts_S64x16x128_S64x16x128 : S64x16x128.ShapeCasts S64x16x128
  shapeCasts_S2x64x128_S2x64x1x128 : S2x64x128.ShapeCasts S2x64x1x128
  shapeCasts_S64x16x128_S1x64x16x128 : S64x16x128.ShapeCasts S1x64x16x128
  broadcasts_S2x64x1x128_S2x64x16x128 : S2x64x1x128.Broadcasts S2x64x16x128
  broadcasts_S1x64x16x128_S2x64x16x128 : S1x64x16x128.Broadcasts S2x64x16x128
  reduces_S2x64x16x128_S2x64x128 : S2x64x16x128.Reduces [2] S2x64x128
  dot_S128x16080_S16080x128_S128x128_1_0_0_1_n_n_wf : DotDims.WF S128x16080 S16080x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x16080.size a ≤ S64x64x16080.size a
  hwx0_0 : ∀ i : grid0.Coords, EltTy.bits .f32 = 32 ∨ (Rect.block (s := S64x64x16080) S2x64x16080.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16080x128.size a ≤ S16080x128.size a
  hwx0_1 : ∀ i : grid0.Coords, EltTy.bits .f32 = 32 ∨ (Rect.block (s := S16080x128) S16080x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16x128.size a ≤ S64x16x128.size a
  hwx0_3 : ∀ i : grid0.Coords, EltTy.bits .f32 = 32 ∨ (Rect.block (s := S64x16x128) S64x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x64x128.size a ≤ S64x64x128.size a
  hwx0_4 : ∀ i : grid0.Coords, EltTy.bits .f32 = 32 ∨ (Rect.block (s := S64x64x128) S2x64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x64x128.size a ≤ S64x64x128.size a
  hwx0_5 : ∀ i : grid0.Coords, EltTy.bits .f32 = 32 ∨ (Rect.block (s := S64x64x128) S2x64x128.size (cc0_transform_5 i) (hinb0_5 i)).WholeWords (EltTy.packing .f32)

variable [Facts₀]

def dot_S128x16080_S16080x128_S128x128_1_0_0_1_n_n : DotDims S128x16080 S16080x128 S128x128 where
  lhsContracting := [1]
  rhsContracting := [0]
  lhsNonContracting := [0]
  rhsNonContracting := [1]
  lhsBatch := []
  rhsBatch := []
  wf := dot_S128x16080_S16080x128_S128x128_1_0_0_1_n_n_wf

abbrev win0_0 : Pipeline.Window sig grid0 :=
  Pipeline.Window.ofSpec (Memref.whole main_arg0) S2x64x16080.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16080x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S2x64x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S2x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x64x16080 : Shape := ⟨3, ![64, 64, 16080]⟩
abbrev S128x16080 : Shape := ⟨2, ![128, 16080]⟩
abbrev S128 : Shape := ⟨1, ![128]⟩
abbrev S64x128x16 : Shape := ⟨3, ![64, 128, 16]⟩
abbrev S64x64x128 : Shape := ⟨3, ![64, 64, 128]⟩
abbrev S1x1x128 : Shape := ⟨3, ![1, 1, 128]⟩
abbrev S_ : Shape := ⟨0, ![]⟩
abbrev S64x64x128x1 : Shape := ⟨4, ![64, 64, 128, 1]⟩
abbrev S1x64x128x16 : Shape := ⟨4, ![1, 64, 128, 16]⟩
abbrev S64x64x128x16 : Shape := ⟨4, ![64, 64, 128, 16]⟩

abbrev nBuf : Space → Nat
  | .hbm => 41
  | .vmem => 0
  | .smem => 0
  | _ => 0

abbrev bufTy : (tb : Table) → Fin (tcTables nBuf tb) → BufTy
  | .hbm, ⟨0, _⟩ => ⟨S64x64x16080, .f32⟩
  | .hbm, ⟨1, _⟩ => ⟨S128x16080, .f32⟩
  | .hbm, ⟨2, _⟩ => ⟨S128, .f32⟩
  | .hbm, ⟨3, _⟩ => ⟨S64x128x16, .f32⟩
  | .hbm, ⟨4, _⟩ => ⟨S64x64x128, .f32⟩
  | .hbm, ⟨5, _⟩ => ⟨S1x1x128, .f32⟩
  | .hbm, ⟨6, _⟩ => ⟨S64x64x128, .f32⟩
  | .hbm, ⟨7, _⟩ => ⟨S64x64x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x64x128, .f32⟩
  | .hbm, ⟨12, _⟩ => ⟨S64x64x128, .f32⟩
  | .hbm, ⟨13, _⟩ => ⟨S_, .f32⟩
  | .hbm, ⟨14, _⟩ => ⟨S64x64x128, .f32⟩
  | .hbm, ⟨15, _⟩ => ⟨S64x64x128, .f32⟩
  | .hbm, ⟨16, _⟩ => ⟨S64x64x128x1, .f32⟩
  | .hbm, ⟨17, _⟩ => ⟨S1x64x128x16, .f32⟩
  | .hbm, ⟨18, _⟩ => ⟨S64x64x128x16, .f32⟩
  | .hbm, ⟨19, _⟩ => ⟨S64x64x128x16, .f32⟩
  | .hbm, ⟨20, _⟩ => ⟨S64x64x128x16, .f32⟩
  | .hbm, ⟨21, _⟩ => ⟨S_, .f32⟩
  | .hbm, ⟨22, _⟩ => ⟨S64x64x128, .f32⟩
  | .hbm, ⟨23, _⟩ => ⟨S_, .f32⟩
  | .hbm, ⟨24, _⟩ => ⟨S64x64x128, .f32⟩
  | .hbm, ⟨25, _⟩ => ⟨S64x64x128, .f32⟩
  | .hbm, ⟨26, _⟩ => ⟨S64x64x128x1, .f32⟩
  | .hbm, ⟨27, _⟩ => ⟨S64x64x128x16, .f32⟩
  | .hbm, ⟨28, _⟩ => ⟨S64x64x128x16, .f32⟩
  | .hbm, ⟨29, _⟩ => ⟨S64x64x128x16, .f32⟩
  | .hbm, ⟨30, _⟩ => ⟨S_, .f32⟩
  | .hbm, ⟨31, _⟩ => ⟨S64x64x128, .f32⟩
  | .hbm, ⟨32, _⟩ => ⟨S64x64x128x1, .f32⟩
  | .hbm, ⟨33, _⟩ => ⟨S64x64x128x16, .f32⟩
  | .hbm, ⟨34, _⟩ => ⟨S64x64x128x16, .f32⟩
  | .hbm, ⟨35, _⟩ => ⟨S64x64x128x16, .f32⟩
  | .hbm, ⟨36, _⟩ => ⟨S_, .f32⟩
  | .hbm, ⟨37, _⟩ => ⟨S64x64x128x16, .f32⟩
  | .hbm, ⟨38, _⟩ => ⟨S64x64x128x16, .f32⟩
  | .hbm, ⟨39, _⟩ => ⟨S_, .f32⟩
  | .hbm, ⟨40, _⟩ => ⟨S64x64x128, .f32⟩
  | _, _ => ⟨S64x64x16080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S64x64x128_0_1_2 : S1x1x128.BroadcastsInDim S64x64x128 (![0, 1, 2] : Fin 3 → Fin S64x64x128.rank)
  bcast_S_S64x64x128 : S_.BroadcastsInDim S64x64x128 (![] : Fin 0 → Fin S64x64x128.rank)
  bcast_S64x64x128_S64x64x128x1_0_1_2 : S64x64x128.BroadcastsInDim S64x64x128x1 (![0, 1, 2] : Fin 3 → Fin S64x64x128x1.rank)
  bcast_S64x128x16_S1x64x128x16_1_2_3 : S64x128x16.BroadcastsInDim S1x64x128x16 (![1, 2, 3] : Fin 3 → Fin S1x64x128x16.rank)
  bcast_S64x64x128x1_S64x64x128x16_0_1_2_3 : S64x64x128x1.BroadcastsInDim S64x64x128x16 (![0, 1, 2, 3] : Fin 4 → Fin S64x64x128x16.rank)
  bcast_S1x64x128x16_S64x64x128x16_0_1_2_3 : S1x64x128x16.BroadcastsInDim S64x64x128x16 (![0, 1, 2, 3] : Fin 4 → Fin S64x64x128x16.rank)
  reducesTo_S64x64x128x16_S64x64x128_d3 : S64x64x128x16.ReducesTo [3] S64x64x128
  h_S_ : 0 < S_.numel
  bcast_S_S64x64x128x16 : S_.BroadcastsInDim S64x64x128x16 (![] : Fin 0 → Fin S64x64x128x16.rank)
  dot_S64x64x16080_S128x16080_S64x64x128_2_1_01_0_n_n_wf : DotDims.WF S64x64x16080 S128x16080 S64x64x128 [2] [1] [0, 1] [0] [] []

variable [Facts₀]

def dot_S64x64x16080_S128x16080_S64x64x128_2_1_01_0_n_n : DotDims S64x64x16080 S128x16080 S64x64x128 where
  lhsContracting := [2]
  rhsContracting := [1]
  lhsNonContracting := [0, 1]
  rhsNonContracting := [0]
  lhsBatch := []
  rhsBatch := []
  wf := dot_S64x64x16080_S128x16080_S64x64x128_2_1_01_0_n_n_wf

class Facts : Prop extends Facts₀ where

variable [Facts]
-- ==== Proof.Spec.lean ====
/-
  The decision-node layer as functions on the extended reals.

  One entry of the first result is the clipped affine value
      path x w b = min 1 (max (-1) ((∑ k, x k * w k) + b)),
  a row of the input against a row of the weights plus a bias, cut to [-1, 1].
  One entry of the second result takes that value s and the C class contributions c of its tree and leaf:
  the scores s * c k, their largest value (a fold of max started from the word of -inf), the weights
  exp (s * c k - largest), and the Gini term ∑ k, (1 - p k * p k) with p k the weight over the weights' sum.

  Two laws join the kernel's spelling to the reference's. The kernel forms the product three times, with the
  operands x, w and the remainders x - x and w - w; over real entries the remainders are zero and the two extra
  products vanish (split3). The reference takes the largest score once more against -inf; a fold of max is
  already at least its starting value (max_fold).
-/
import Idealize.ShloMosaic.PureOps.Ideal
import Idealize.ShloMosaic.PureOps.Ideal.Laws
import Idealize.ShloMosaic.Lib.ValueIdx

noncomputable section

open scoped BigOperators

namespace Cert.Node

open Idealize.ShloMosaic Idealize.ShloMosaic.ValueIdx

/-- The words of 1, -1 and -inf, kept as the programs print them: both sides carry the same words, so their
    values are never needed. -/
abbrev one : EReal := Ideal.ofBits .f32 0x3F800000#32
abbrev negOne : EReal := Ideal.ofBits .f32 0xBF800000#32
abbrev negInf : EReal := Ideal.ofBits .f32 0xFF800000#32

/-- A value cut to the interval between the words of -1 and 1. -/
def clip (y : EReal) : EReal := min one (max negOne y)

/-- One entry of the first result: a row of the input against a row of the weights, plus the bias, clipped. -/
def path {K : Nat} (x w : Fin K → EReal) (b : EReal) : EReal := clip ((∑ k, x k * w k) + b)

/-- The largest of the scores s * c k, as a fold of max from the word of -inf. -/
def top {C : Nat} (s : EReal) (c : Fin C → EReal) : EReal :=
  (Finset.univ : Finset (Fin C)).fold max negInf (fun k => s * c k)

/-- The unnormalized weight of class k: the exponential of its score less the largest score. -/
def weight {C : Nat} (s : EReal) (c : Fin C → EReal) (k : Fin C) : EReal := Ideal.exp (s * c k - top s c)

/-- The Gini term of a leaf: the sum over the classes of one less the squared normalized weight. -/
def gini {C : Nat} (s : EReal) (c : Fin C → EReal) : EReal :=
  ∑ k, (one - Ideal.div (weight s c k) (∑ k', weight s c k') * Ideal.div (weight s c k) (∑ k', weight s c k'))

/-- A real number less itself is zero on the extended reals. -/
theorem sub_self_of_real (x : EReal) (h : ∃ r : ℝ, x = (r : EReal)) : x - x = 0 := by
  obtain ⟨r, rfl⟩ := h
  rw [← EReal.coe_sub, sub_self, EReal.coe_zero]

/-- The three-pass product over real entries is the one product: the remainders x - x and w - w are zero, a
    product with zero is zero, and a sum of zeros is zero. -/
theorem split3 {K : Nat} (x w : Fin K → EReal) (hx : ∀ k, ∃ r : ℝ, x k = (r : EReal))
    (hw : ∀ k, ∃ r : ℝ, w k = (r : EReal)) :
    ((∑ k, x k * w k) + ∑ k, x k * (w k - w k)) + ∑ k, (x k - x k) * w k = ∑ k, x k * w k := by
  have h1 : ∀ k, w k - w k = 0 := fun k => sub_self_of_real _ (hw k)
  have h2 : ∀ k, x k - x k = 0 := fun k => sub_self_of_real _ (hx k)
  simp only [h1, h2, mul_zero, zero_mul, Finset.sum_const_zero, add_zero]

/-- A fold of max is at least its starting value, so taking the maximum with that value again changes nothing. -/
theorem max_fold {ι : Type} (s : Finset ι) (b : EReal) (f : ι → EReal) :
    max b (s.fold max b f) = s.fold max b f :=
  max_eq_right (Finset.le_fold_max b |>.2 (Or.inl le_rfl))

/-! ## The two results as functions of the four argument arrays -/

/-- The argument arrays' shapes — input [64,64,16080], weights [128,16080], bias [128], contributions [64,128,16] —
    and the results' shape [64,64,128]. -/
abbrev SX : Shape := ⟨3, ![64, 64, 16080]⟩
abbrev SW : Shape := ⟨2, ![128, 16080]⟩
abbrev SB : Shape := ⟨1, ![128]⟩
abbrev SC : Shape := ⟨3, ![64, 128, 16]⟩
abbrev SO : Shape := ⟨3, ![64, 64, 128]⟩

/-- The first result at batch b, tree t, leaf l: row (b, t) of the input against row l of the weights, plus the
    bias of leaf l, clipped. -/
def sp (X : SX.Idx → EReal) (W : SW.Idx → EReal) (B : SB.Idx → EReal) (b t : Fin 64) (l : Fin 128) : EReal :=
  path (fun k => X (ix3 b t k)) (fun k => W (ix2 l k)) (B (ix1 l))

/-- The second result at (b, t, l): the Gini term of the first result's entry against the contributions of tree t,
    leaf l. -/
def gi (X : SX.Idx → EReal) (W : SW.Idx → EReal) (B : SB.Idx → EReal) (C : SC.Idx → EReal) (b t : Fin 64)
    (l : Fin 128) : EReal :=
  gini (sp X W B b t l) (fun k => C (ix3 t l k))

/-- The first result, entry by entry. -/
def G4 (X : SX.Idx → EReal) (W : SW.Idx → EReal) (B : SB.Idx → EReal) : SO.Idx → EReal :=
  fun i => sp X W B (i 0) (i 1) (i 2)

/-- The second result, entry by entry. -/
def G5 (X : SX.Idx → EReal) (W : SW.Idx → EReal) (B : SB.Idx → EReal) (C : SC.Idx → EReal) : SO.Idx → EReal :=
  fun i => gi X W B C (i 0) (i 1) (i 2)

theorem G4_apply (X : SX.Idx → EReal) (W : SW.Idx → EReal) (B : SB.Idx → EReal) (b t : Fin 64) (l : Fin 128) :
    G4 X W B (ix3 b t l) = sp X W B b t l := rfl

theorem G5_apply (X : SX.Idx → EReal) (W : SW.Idx → EReal) (B : SB.Idx → EReal) (C : SC.Idx → EReal) (b t : Fin 64)
    (l : Fin 128) : G5 X W B C (ix3 b t l) = gi X W B C b t l := rfl

end Cert.Node

end
-- ==== Proof.LibStack4.lean ====
/-
  Rank-4 stacks read at an entry, over any extents a b c n.

  Layout steps: a rank-3 array [a,b,n] given a unit third axis, [a,b,1,n], and that axis spread to c entries;
  a rank-3 array [b,c,n] given a unit leading axis, [1,b,c,n], and that axis spread to a entries. Each reads the
  operand at the entry with the new coordinate dropped.

  Reductions along ONE axis of a rank-4 array: the source index over a kept index (p,q,l) with coordinate k inserted
  on axis 2 is (p,q,k,l), and on axis 3 it is (p,q,l,k). So a maximum along the axis is the fold of max over k from
  the starting word, and a sum along it is the sum over k, for a vector multi-reduction (axis 2 of [a,b,c,n]) and
  for a host reduction (axis 3 of [a,b,n,c]).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibStack4

open Idealize.ShloMosaic Idealize.ShloMosaic.ValueIdx

variable {α : Type} {a b c n : Nat}

/-! ## Layout -/

/-- [a,b,n] seen as [a,b,1,n]: entry (p,q,z,l) is the operand's entry (p,q,l). -/
theorem cast_mid_unit (x : (⟨3, ![a, b, n]⟩ : Shape).Idx → α)
    (h : (⟨3, ![a, b, n]⟩ : Shape).ShapeCasts ⟨4, ![a, b, 1, n]⟩) (p : Fin a) (q : Fin b) (z : Fin 1) (l : Fin n) :
    shapeCast ⟨4, ![a, b, 1, n]⟩ x h (ix4 p q z l) = x (ix3 p q l) := by
  refine shapeCast_apply x h _ _ ?_
  rw [Shape.rowMajor_val_three, Shape.rowMajor_val_four]
  have hz : z.val = 0 := by have := z.isLt; omega
  show (p.val * b + q.val) * n + l.val = ((p.val * b + q.val) * 1 + z.val) * n + l.val
  rw [hz, Nat.mul_one, Nat.add_zero]

/-- [a,b,1,n] spread over [a,b,c,n]: entry (p,q,k,l) is the operand's entry (p,q,0,l). -/
theorem spread_mid (x : (⟨4, ![a, b, 1, n]⟩ : Shape).Idx → α)
    (h : (⟨4, ![a, b, 1, n]⟩ : Shape).Broadcasts ⟨4, ![a, b, c, n]⟩) (p : Fin a) (q : Fin b) (k : Fin c) (l : Fin n) :
    broadcastTo ⟨4, ![a, b, c, n]⟩ x h (ix4 p q k l) = x (ix4 p q (0 : Fin 1) l) := by
  refine broadcastTo_apply x h _ _ fun e => ?_
  match e with
  | ⟨0, _⟩ =>
    show p.val = if a = 1 then 0 else p.val
    have := p.isLt
    split <;> omega
  | ⟨1, _⟩ =>
    show q.val = if b = 1 then 0 else q.val
    have := q.isLt
    split <;> omega
  | ⟨2, _⟩ =>
    show 0 = if (1 : Nat) = 1 then 0 else k.val
    rw [if_pos rfl]
  | ⟨3, _⟩ =>
    show l.val = if n = 1 then 0 else l.val
    have := l.isLt
    split <;> omega

/-- [b,c,n] seen as [1,b,c,n]: entry (z,q,k,l) is the operand's entry (q,k,l). -/
theorem cast_lead_unit (x : (⟨3, ![b, c, n]⟩ : Shape).Idx → α)
    (h : (⟨3, ![b, c, n]⟩ : Shape).ShapeCasts ⟨4, ![1, b, c, n]⟩) (z : Fin 1) (q : Fin b) (k : Fin c) (l : Fin n) :
    shapeCast ⟨4, ![1, b, c, n]⟩ x h (ix4 z q k l) = x (ix3 q k l) := by
  refine shapeCast_apply x h _ _ ?_
  rw [Shape.rowMajor_val_three, Shape.rowMajor_val_four]
  have hz : z.val = 0 := by have := z.isLt; omega
  show (q.val * c + k.val) * n + l.val = ((z.val * b + q.val) * c + k.val) * n + l.val
  rw [hz, Nat.zero_mul, Nat.zero_add]

/-- [1,b,c,n] spread over [a,b,c,n]: entry (p,q,k,l) is the operand's entry (0,q,k,l). -/
theorem spread_lead (x : (⟨4, ![1, b, c, n]⟩ : Shape).Idx → α)
    (h : (⟨4, ![1, b, c, n]⟩ : Shape).Broadcasts ⟨4, ![a, b, c, n]⟩) (p : Fin a) (q : Fin b) (k : Fin c) (l : Fin n) :
    broadcastTo ⟨4, ![a, b, c, n]⟩ x h (ix4 p q k l) = x (ix4 (0 : Fin 1) q k l) := by
  refine broadcastTo_apply x h _ _ fun e => ?_
  match e with
  | ⟨0, _⟩ =>
    show 0 = if (1 : Nat) = 1 then 0 else p.val
    rw [if_pos rfl]
  | ⟨1, _⟩ =>
    show q.val = if b = 1 then 0 else q.val
    have := q.isLt
    split <;> omega
  | ⟨2, _⟩ =>
    show k.val = if c = 1 then 0 else k.val
    have := k.isLt
    split <;> omega
  | ⟨3, _⟩ =>
    show l.val = if n = 1 then 0 else l.val
    have := l.isLt
    split <;> omega

/-! ## The index over a kept index, with the dropped coordinate inserted -/

/-- Along axis 2 of [a,b,c,n]: over (p,q,l) with k inserted sits (p,q,k,l). -/
theorem lift_axis2 (h : (⟨4, ![a, b, c, n]⟩ : Shape).Reduces [2] ⟨3, ![a, b, n]⟩) (p : Fin a) (q : Fin b) (l : Fin n)
    (k : Fin c) : h.lift (ix3 p q l) k = ix4 p q k l := by
  funext e
  apply Fin.ext
  match e with
  | ⟨0, _⟩ => rfl
  | ⟨1, _⟩ => rfl
  | ⟨2, _⟩ => rfl
  | ⟨3, _⟩ => rfl

/-- Along axis 3 of [a,b,n,c]: over (p,q,l) with k inserted sits (p,q,l,k). -/
theorem lift_axis3 (h : (⟨4, ![a, b, n, c]⟩ : Shape).Reduces [3] ⟨3, ![a, b, n]⟩) (p : Fin a) (q : Fin b) (l : Fin n)
    (k : Fin c) : h.lift (ix3 p q l) k = ix4 p q l k := by
  funext e
  apply Fin.ext
  match e with
  | ⟨0, _⟩ => rfl
  | ⟨1, _⟩ => rfl
  | ⟨2, _⟩ => rfl
  | ⟨3, _⟩ => rfl

/-! ## Reductions along one axis, at the extended reals -/

variable {φ : FTy}

/-- A vector maximum along axis 2: at (p,q,l) the fold of max over k of the source at (p,q,k,l), from the
    starting word's value. -/
theorem max_axis2 (src : FVec Ideal ⟨4, ![a, b, c, n]⟩ φ) (acc : BitVec φ.bits)
    (h : (⟨4, ![a, b, c, n]⟩ : Shape).Reduces [2] ⟨3, ![a, b, n]⟩) (hφ : FKind.Formats φ)
    (hacc : acc = FKind.maximumf.neutral φ hφ) (p : Fin a) (q : Fin b) (l : Fin n) :
    multiReduction .maximumf [2] ⟨3, ![a, b, n]⟩ src acc h hφ hacc (ix3 p q l)
      = (Finset.univ : Finset (Fin c)).fold max (Ideal.ofBits φ acc) (fun k => src (ix4 p q k l)) := by
  rw [Ideal.multiReduction_maximumf_single]
  exact congrArg (fun f => Finset.fold max (Ideal.ofBits φ acc) f (Finset.univ : Finset (Fin c)))
    (funext fun k => congrArg src (lift_axis2 h p q l k))

/-- A vector sum along axis 2: at (p,q,l) the sum over k of the source at (p,q,k,l). -/
theorem sum_axis2 (src : FVec Ideal ⟨4, ![a, b, c, n]⟩ φ) (acc : BitVec φ.bits)
    (h : (⟨4, ![a, b, c, n]⟩ : Shape).Reduces [2] ⟨3, ![a, b, n]⟩) (hφ : FKind.Formats φ)
    (hacc : acc = FKind.add.neutral φ hφ) (p : Fin a) (q : Fin b) (l : Fin n) :
    multiReduction .add [2] ⟨3, ![a, b, n]⟩ src acc h hφ hacc (ix3 p q l) = ∑ k : Fin c, src (ix4 p q k l) := by
  rw [Ideal.multiReduction_add_single]
  exact Finset.sum_congr rfl fun k _ => congrArg src (lift_axis2 h p q l k)

/-- A host maximum along axis 3: at (p,q,l) the fold of max over k of the operand at (p,q,l,k), from the
    initial value. -/
theorem hostMax_axis3 {u : Shape} (x : FVec Ideal ⟨4, ![a, b, n, c]⟩ φ) (init : FVec Ideal u φ)
    (h' : (⟨4, ![a, b, n, c]⟩ : Shape).ReducesTo [3] ⟨3, ![a, b, n]⟩)
    (h : (⟨4, ![a, b, n, c]⟩ : Shape).Reduces [3] ⟨3, ![a, b, n]⟩) (hu : 0 < u.numel) (p : Fin a) (q : Fin b)
    (l : Fin n) :
    Host.reduce FloatOps.maximumf x init h' hu (ix3 p q l)
      = (Finset.univ : Finset (Fin c)).fold max (init (Shape.Idx.first hu)) (fun k => x (ix4 p q l k)) := by
  rw [Host.reduce_eq_fold_single FloatOps.maximumf x init h' h hu]
  exact congrArg (fun f => Finset.fold max (init (Shape.Idx.first hu)) f (Finset.univ : Finset (Fin c)))
    (funext fun k => congrArg x (lift_axis3 h p q l k))

end Cert.LibStack4

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KernelPay.lean ====
/-
  The kernel body's stored values read at an entry, at the extended reals.

  A block of the body is two batches of 64 trees. Its [128, ·] views number the rows batch-major: row p * 64 + q
  holds batch p, tree q. The first store, at (p, q, l), is the clipped sum of three products of row (p, q) of the
  input block with column l of the transposed weights, plus the bias row's entry l; over real entries the three
  products are the one product (Node.split3), so the entry is Node.path of that row, that column and that bias.
  The value passed on to the second store is, at (p, q, k, l), the weight of class k for the score s * c k with
  s the first store's entry (p, q, l) and c k the contribution block's entry (q, k, l); the second store at
  (p, q, l) is the Gini term of those weights.
-/
import proofs.«129472_j53858889892406_2_alg».proof.Proof.Gen.KernelIdeal.Skeleton
import proofs.«129472_j53858889892406_2_alg».proof.Proof.Spec
import proofs.«129472_j53858889892406_2_alg».proof.Proof.LibStack4
import proofs.«129472_j53858889892406_2_alg».proof.Proof.LibMatmulPlain
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The batch-major rows -/

/-- The row of a [128, ·] view that holds batch p, tree q. -/
def row (p : Fin 2) (q : Fin 64) : Fin 128 := ⟨p.val * 64 + q.val, by have := p.isLt; have := q.isLt; omega⟩

/-- The input block [2,64,16080] seen as [128,16080]: row (p, q), column k is the block's entry (p, q, k). -/
theorem rows_apply {α : Type} (x : S2x64x16080.Idx → α) (h : S2x64x16080.ShapeCasts S128x16080) (p : Fin 2)
    (q : Fin 64) (k : Fin 16080) : shapeCast S128x16080 x h (ix2 (row p q) k) = x (ix3 p q k) := by
  refine shapeCast_apply x h _ _ ?_
  rw [Shape.rowMajor_val_three, Shape.rowMajor_val_two]
  rfl

/-- A [128,128] value seen as [2,64,128]: entry (p, q, l) is the value's row (p, q), column l. -/
theorem unrows_apply {α : Type} (x : S128x128.Idx → α) (h : S128x128.ShapeCasts S2x64x128) (p : Fin 2) (q : Fin 64)
    (l : Fin 128) : shapeCast S2x64x128 x h (ix3 p q l) = x (ix2 (row p q) l) := by
  refine shapeCast_apply x h _ _ ?_
  rw [Shape.rowMajor_val_three, Shape.rowMajor_val_two]
  rfl

/-- The bias row [1,128] spread down 128 rows: entry (r, l) is the row's entry l. -/
theorem biasRow_apply {α : Type} (x : S1x128.Idx → α) (h : S1x128.Broadcasts S128x128) (r l : Fin 128) :
    broadcastTo S128x128 x h (ix2 r l) = x (ix2 (0 : Fin 1) l) := by
  refine broadcastTo_apply x h _ _ fun e => ?_
  match e with
  | ⟨0, _⟩ => rfl
  | ⟨1, _⟩ => rfl

/-! ## The pointwise operations at an entry -/

theorem exp_apply {s : Shape} {φ : FTy} (v : FVec Ideal s φ) (i : s.Idx) : exp v i = Ideal.exp (v i) := rfl

/-- The product of a [128,16080] by a [16080,128] operand into the zero accumulator: entry (r, l) is the sum
    over k of left (r, k) * right (k, l). -/
theorem prod_apply {φ₁ φ₂ : FTy} (A : FVec Ideal S128x16080 φ₁) (B : FVec Ideal S16080x128 φ₂) (r l : Fin 128) :
    matmul dot_S128x16080_S16080x128_S128x128_1_0_0_1_n_n none A B (constant S128x128 .f32 0x00000000#32) (ix2 r l)
      = ∑ k : Fin 16080, A (ix2 r k) * B (ix2 k l) :=
  Cert.LibMatmulPlain.matmul_zero_apply dot_S128x16080_S16080x128_S128x128_1_0_0_1_n_n rfl rfl rfl rfl rfl rfl none A B r l

/-! ## The first store -/

/-- The first store at (p, q, l), over real entries of the input block and of the weights: the clipped product
    of row (p, q) with column l, plus the bias. -/
theorem pay2_apply (x0 : Vec Ideal S2x64x16080 .f32) (x1 : Vec Ideal S16080x128 .f32) (x2 : Vec Ideal S1x128 .f32)
    (hx0 : ∀ i, ∃ r : ℝ, x0 i = (r : EReal)) (hx1 : ∀ i, ∃ r : ℝ, x1 i = (r : EReal))
    (p : Fin 2) (q : Fin 64) (l : Fin 128) :
    k0_pay2 (F := Ideal) x0 x1 x2 (ix3 p q l)
      = Cert.Node.path (fun k => x0 (ix3 p q k)) (fun k => x1 (ix2 k l)) (x2 (ix2 (0 : Fin 1) l)) := by
  unfold k0_pay2
  rw [unrows_apply]
  simp only [minimumf_apply, maximumf_apply, addf_apply, broadcast_apply, prod_apply, truncf_apply, subf_apply,
    rows_apply, shapeCast_self, biasRow_apply]
  unfold Cert.Node.path Cert.Node.clip
  rw [Cert.Node.split3 (fun k => x0 (ix3 p q k)) (fun k => x1 (ix2 k l)) (fun k => hx0 _) (fun k => hx1 _)]
  rfl

/-! ## The value passed to the second store, and the second store -/

/-- The scores laid over [2,64,16,128] as the body forms them: the first store's value given a unit class axis
    and spread over the 16 classes, times the contribution block given a unit batch axis and spread over the 2
    batches. -/
def scores (s : FVec Ideal S2x64x128 .f32) (x3 : Vec Ideal S64x16x128 .f32) : FVec Ideal S2x64x16x128 .f32 :=
  mulf (broadcastTo S2x64x16x128 (shapeCast S2x64x1x128 s shapeCasts_S2x64x128_S2x64x1x128) broadcasts_S2x64x1x128_S2x64x16x128)
    (broadcastTo S2x64x16x128 (shapeCast S1x64x16x128 (shapeCast S64x16x128 x3 shapeCasts_S64x16x128_S64x16x128)
      shapeCasts_S64x16x128_S1x64x16x128) broadcasts_S1x64x16x128_S2x64x16x128)

/-- The score at (p, q, k, l): the value's entry (p, q, l) times the contribution block's entry (q, k, l). -/
theorem scores_apply (s : FVec Ideal S2x64x128 .f32) (x3 : Vec Ideal S64x16x128 .f32) (p : Fin 2) (q : Fin 64)
    (k : Fin 16) (l : Fin 128) : scores s x3 (ix4 p q k l) = s (ix3 p q l) * x3 (ix3 q k l) := by
  unfold scores
  rw [mulf_apply, Cert.LibStack4.spread_mid, Cert.LibStack4.cast_mid_unit, Cert.LibStack4.spread_lead,
    Cert.LibStack4.cast_lead_unit, shapeCast_self]

/-- For any scores array whose entries over (p, q, l) are s * c k: the exponential of a score less the largest
    score along the class axis, laid back over that axis, is the weight of class k. -/
theorem weight_apply (SC : FVec Ideal S2x64x16x128 .f32) (s : EReal) (c : Fin 16 → EReal) (p : Fin 2) (q : Fin 64)
    (l : Fin 128) (hSC : ∀ k, SC (ix4 p q k l) = s * c k) (k : Fin 16) :
    exp (subf SC (broadcastTo S2x64x16x128 (shapeCast S2x64x1x128
        (multiReduction .maximumf [2] S2x64x128 SC 0xFF800000#32 reduces_S2x64x16x128_S2x64x128 (.inl rfl) rfl)
        shapeCasts_S2x64x128_S2x64x1x128) broadcasts_S2x64x1x128_S2x64x16x128)) (ix4 p q k l)
      = Cert.Node.weight s c k := by
  show Ideal.exp (SC (ix4 p q k l) - _) = _
  rw [hSC k]
  refine congrArg (fun m => Ideal.exp (s * c k - m)) ?_
  refine (Cert.LibStack4.spread_mid _ _ p q k l).trans ((Cert.LibStack4.cast_mid_unit _ _ p q 0 l).trans
    ((Cert.LibStack4.max_axis2 _ _ _ _ _ p q l).trans ?_))
  unfold Cert.Node.top
  exact congrArg (fun f => Finset.fold max Cert.Node.negInf f (Finset.univ : Finset (Fin 16))) (funext hSC)

/-- The exponentials at (p, q, k, l): the weight of class k for the first store's entry (p, q, l) against the
    contribution block's entries (q, ·, l). -/
theorem pay3_apply (x0 : Vec Ideal S2x64x16080 .f32) (x1 : Vec Ideal S16080x128 .f32) (x2 : Vec Ideal S1x128 .f32)
    (x3 : Vec Ideal S64x16x128 .f32) (p : Fin 2) (q : Fin 64) (k : Fin 16) (l : Fin 128) :
    k0_pay3 (F := Ideal) x0 x1 x2 x3 (ix4 p q k l)
      = Cert.Node.weight (k0_pay2 (F := Ideal) x0 x1 x2 (ix3 p q l)) (fun k' => x3 (ix3 q k' l)) k := by
  unfold k0_pay3
  exact weight_apply (scores (k0_pay2 (F := Ideal) x0 x1 x2) x3) _ _ p q l
    (fun k' => scores_apply (k0_pay2 (F := Ideal) x0 x1 x2) x3 p q k' l) k

/-- For any array v and any array B whose entry at i is tot: one less the squared quotient, at i. -/
theorem share_of_total (v B : FVec Ideal S2x64x16x128 .f32) (tot : EReal) (i : S2x64x16x128.Idx) (hB : B i = tot) :
    subf (broadcast S2x64x16x128 (FloatOps.ofBits (F := Ideal) .f32 0x3F800000#32)) (mulf (divf v B) (divf v B)) i
      = Cert.Node.one - Ideal.div (v i) tot * Ideal.div (v i) tot := by
  subst hB
  rfl

/-- The second store at (p, q, l) from the values passed to it: the sum over the classes of one less the squared
    share of class k. -/
theorem pay1_apply (v : FVec Ideal S2x64x16x128 .f32) (p : Fin 2) (q : Fin 64) (l : Fin 128) :
    k0_pay1 (F := Ideal) v (ix3 p q l)
      = ∑ k : Fin 16, (Cert.Node.one - Ideal.div (v (ix4 p q k l)) (∑ k' : Fin 16, v (ix4 p q k' l))
          * Ideal.div (v (ix4 p q k l)) (∑ k' : Fin 16, v (ix4 p q k' l))) := by
  unfold k0_pay1
  refine (Cert.LibStack4.sum_axis2 _ _ _ _ _ p q l).trans (Finset.sum_congr rfl fun k _ => ?_)
  exact share_of_total v _ _ (ix4 p q k l) ((Cert.LibStack4.spread_mid _ _ p q k l).trans
    ((Cert.LibStack4.cast_mid_unit _ _ p q 0 l).trans (Cert.LibStack4.sum_axis2 _ _ _ _ _ p q l)))

/-- The second store at (p, q, l): the Gini term of the first store's entry against the contribution block. -/
theorem gini_apply (x0 : Vec Ideal S2x64x16080 .f32) (x1 : Vec Ideal S16080x128 .f32) (x2 : Vec Ideal S1x128 .f32)
    (x3 : Vec Ideal S64x16x128 .f32) (p : Fin 2) (q : Fin 64) (l : Fin 128) :
    k0_pay1 (F := Ideal) (k0_pay3 (F := Ideal) x0 x1 x2 x3) (ix3 p q l)
      = Cert.Node.gini (k0_pay2 (F := Ideal) x0 x1 x2 (ix3 p q l)) (fun k => x3 (ix3 q k l)) := by
  rw [pay1_apply]
  unfold Cert.Node.gini
  refine Finset.sum_congr rfl fun k _ => ?_
  simp only [pay3_apply]

end Cert.KernelIdeal.Pay

end
-- ==== Proof.KernelArr.lean ====
/-
  From blocks to arrays: what the kernel's two result arrays hold after the run.

  The grid has 32 points. Point t works on batches 2t and 2t+1: the input's block t is rows [2t, 2t+2) of the
  batch axis with all trees and all features, and each result's block t is the same two batches. The transposed
  weights, the bias row and the transposed contributions are single blocks, the same at every point; the host
  wrote them before the region, from the arguments: entry (k, l) of the transposed weights is the weights' entry
  (l, k), entry (0, l) of the bias row is the bias's entry l, entry (q, k, l) of the transposed contributions is the
  contributions' entry (q, l, k).

  So what point t leaves in the first result's buffer at (p, q, l) is Node.sp at batch 2t+p, tree q, leaf l, and in
  the second result's buffer Node.gi there — over real entries of the input and of the weights. Every index of a
  result array lies in the block of the point that is half its batch number, so the arrays end holding Node.G4 and
  Node.G5 of the arguments.
-/
import proofs.«129472_j53858889892406_2_alg».proof.Proof.Gen.KernelIdeal.Value
import proofs.«129472_j53858889892406_2_alg».proof.Proof.KernelPay
import proofs.«129472_j53858889892406_2_alg».proof.Proof.Spec
import Idealize.ShloMosaic.Lib.Pipeline.Value
import Idealize.ShloMosaic.Lib.StableHlo.Run
import Idealize.ShloMosaic.Lib.ValueIdx

noncomputable section

open scoped BigOperators

namespace Cert.KernelIdeal.Arr

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

/-! ## The index maps over the grid -/

/-- The printed index maps, decided over the 32 points: the input and the two results move one block along the
    batch axis per point; every other window stays at its one block. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The batch that row p of point t's block is. -/
def bat (t : Fin cfg0.N) (p : Fin 2) : Fin 64 :=
  ⟨2 * t.val + p.val, by have := t.isLt; have h : cfg0.N = 32 := N_0; have := p.isLt; omega⟩

/-! ## The arrays the host wrote before the region -/

/-- The transposed weights are the weights with their two axes exchanged. -/
theorem V_wt (c : Dev nD) : (V m c main_v0 : S16080x128.Idx → EReal)
    = transpose S16080x128 [1, 0] (m ((c : Thread nD τ).loc main_arg1)) transposes_S128x16080_S16080x128_1_0 := by
  dsimp only [Gen.V, Gen.hostOps0]; after_results <;> rfl

/-- The bias row is the bias given a unit leading axis. -/
theorem V_brow (c : Dev nD) : (V m c main_v1 : S1x128.Idx → EReal)
    = shapeCast S1x128 (m ((c : Thread nD τ).loc main_arg2)) shapeCasts_S128_S1x128 := by
  dsimp only [Gen.V, Gen.hostOps0]; after_results <;> rfl

/-- The transposed contributions are the contributions with their last two axes exchanged. -/
theorem V_ct (c : Dev nD) : (V m c main_v2 : S64x16x128.Idx → EReal)
    = transpose S64x16x128 [0, 2, 1] (m ((c : Thread nD τ).loc main_arg3)) transposes_S64x128x16_S64x16x128_0_2_1 := by
  dsimp only [Gen.V, Gen.hostOps0]; after_results <;> rfl

theorem wt_apply (c : Dev nD) (k : Fin 16080) (l : Fin 128) :
    (V m c main_v0 : S16080x128.Idx → EReal) (ix2 k l) = (m ((c : Thread nD τ).loc main_arg1) : S128x16080.Idx → EReal) (ix2 l k) := by
  rw [V_wt]
  exact transpose_apply _ _ _ _ (ix2 l k) (fun b => match b with | ⟨0, _⟩ => rfl | ⟨1, _⟩ => rfl)

theorem brow_apply (c : Dev nD) (z : Fin 1) (l : Fin 128) :
    (V m c main_v1 : S1x128.Idx → EReal) (ix2 z l) = (m ((c : Thread nD τ).loc main_arg2) : S128.Idx → EReal) (ix1 l) := by
  rw [V_brow]
  refine shapeCast_apply _ _ _ (ix1 l) ?_
  rw [Shape.rowMajor_val_one, Shape.rowMajor_val_two]
  have hz : z.val = 0 := by have := z.isLt; omega
  show l.val = z.val * 128 + l.val
  rw [hz]; omega

theorem ct_apply (c : Dev nD) (q : Fin 64) (k : Fin 16) (l : Fin 128) :
    (V m c main_v2 : S64x16x128.Idx → EReal) (ix3 q k l) = (m ((c : Thread nD τ).loc main_arg3) : S64x128x16.Idx → EReal) (ix3 q l k) := by
  rw [V_ct]
  exact transpose_apply _ _ _ _ (ix3 q l k) (fun b => match b with | ⟨0, _⟩ => rfl | ⟨1, _⟩ => rfl | ⟨2, _⟩ => rfl)

/-! ## The input windows' blocks at a point -/

/-- The input's block at point t: entry (p, q, k) is the input's entry at batch 2t+p, tree q, feature k. -/
theorem iblk0_apply (c : Dev nD) (t : Fin cfg0.N) (p : Fin 2) (q : Fin 64) (k : Fin 16080) :
    (iblk m c 0 t : Vec Ideal S2x64x16080 .f32) (ix3 p q k)
      = (m ((c : Thread nD τ).loc main_arg0) : S64x64x16080.Idx → EReal) (ix3 (bat t p) q k) := by
  obtain ⟨⟨e0, e1, e2⟩, -⟩ := idx_facts t
  unfold iblk
  rw [View.read_apply, ← V_main_arg0 m c]
  show V m c main_arg0 _ = V m c main_arg0 _
  congr 1
  funext a
  apply Fin.ext
  match a with
  | ⟨0, _⟩ => show win0_0.index t (0 : Fin 3) * 2 + 1 * p.val = 2 * t.val + p.val; rw [e0]; omega
  | ⟨1, _⟩ => show win0_0.index t (1 : Fin 3) * 64 + 1 * q.val = q.val; rw [e1]; omega
  | ⟨2, _⟩ => show win0_0.index t (2 : Fin 3) * 16080 + 1 * k.val = k.val; rw [e2]; omega

/-- The transposed weights' block, the same at every point: entry (k, l) is the weights' entry (l, k). -/
theorem iblk1_apply (c : Dev nD) (t : Fin cfg0.N) (k : Fin 16080) (l : Fin 128) :
    (iblk m c 1 t : Vec Ideal S16080x128 .f32) (ix2 k l)
      = (m ((c : Thread nD τ).loc main_arg1) : S128x16080.Idx → EReal) (ix2 l k) := by
  obtain ⟨-, ⟨e0, e1⟩, -⟩ := idx_facts t
  unfold iblk
  rw [View.read_apply, ← wt_apply m c k l]
  show V m c main_v0 _ = V m c main_v0 _
  congr 1
  funext a
  apply Fin.ext
  match a with
  | ⟨0, _⟩ => show win0_1.index t (0 : Fin 2) * 16080 + 1 * k.val = k.val; rw [e0]; omega
  | ⟨1, _⟩ => show win0_1.index t (1 : Fin 2) * 128 + 1 * l.val = l.val; rw [e1]; omega

/-- The bias row's block, the same at every point: entry (0, l) is the bias's entry l. -/
theorem iblk2_apply (c : Dev nD) (t : Fin cfg0.N) (z : Fin 1) (l : Fin 128) :
    (iblk m c 2 t : Vec Ideal S1x128 .f32) (ix2 z l)
      = (m ((c : Thread nD τ).loc main_arg2) : S128.Idx → EReal) (ix1 l) := by
  obtain ⟨-, -, ⟨e0, e1⟩, -⟩ := idx_facts t
  unfold iblk
  rw [View.read_apply, ← brow_apply m c z l]
  show V m c main_v1 _ = V m c main_v1 _
  congr 1
  funext a
  apply Fin.ext
  match a with
  | ⟨0, _⟩ => show win0_2.index t (0 : Fin 2) * 1 + 1 * z.val = z.val; rw [e0]; omega
  | ⟨1, _⟩ => show win0_2.index t (1 : Fin 2) * 128 + 1 * l.val = l.val; rw [e1]; omega

/-- The transposed contributions' block, the same at every point: entry (q, k, l) is the contributions' (q, l, k). -/
theorem iblk3_apply (c : Dev nD) (t : Fin cfg0.N) (q : Fin 64) (k : Fin 16) (l : Fin 128) :
    (iblk m c 3 t : Vec Ideal S64x16x128 .f32) (ix3 q k l)
      = (m ((c : Thread nD τ).loc main_arg3) : S64x128x16.Idx → EReal) (ix3 q l k) := by
  obtain ⟨-, -, -, ⟨e0, e1, e2⟩, -⟩ := idx_facts t
  unfold iblk
  rw [View.read_apply, ← ct_apply m c q k l]
  show V m c main_v2 _ = V m c main_v2 _
  congr 1
  funext a
  apply Fin.ext
  match a with
  | ⟨0, _⟩ => show win0_3.index t (0 : Fin 3) * 64 + 1 * q.val = q.val; rw [e0]; omega
  | ⟨1, _⟩ => show win0_3.index t (1 : Fin 3) * 16 + 1 * k.val = k.val; rw [e1]; omega
  | ⟨2, _⟩ => show win0_3.index t (2 : Fin 3) * 128 + 1 * l.val = l.val; rw [e2]; omega

/-! ## What a point leaves in the two result buffers -/

theorem hz3 : (![0, 0, 0] : Fin 3 → Nat) = fun _ => 0 := funext fun a => by fin_cases a <;> rfl
theorem hz2 : (![0, 0] : Fin 2 → Nat) = fun _ => 0 := funext fun a => by fin_cases a <;> rfl

/-- The four argument arrays as the launch finds them. -/
abbrev aX (c : Dev nD) : S64x64x16080.Idx → EReal := m ((c : Thread nD τ).loc main_arg0)
abbrev aW (c : Dev nD) : S128x16080.Idx → EReal := m ((c : Thread nD τ).loc main_arg1)
abbrev aB (c : Dev nD) : S128.Idx → EReal := m ((c : Thread nD τ).loc main_arg2)
abbrev aC (c : Dev nD) : S64x128x16.Idx → EReal := m ((c : Thread nD τ).loc main_arg3)

/-- Real entries of the input and of the weights. -/
def RealArgs (c : Dev nD) : Prop :=
  (∀ i, ∃ r : ℝ, aX m c i = (r : EReal)) ∧ (∀ i, ∃ r : ℝ, aW m c i = (r : EReal))

/-- The first store of point t at (p, q, l): Node.sp at batch 2t+p, tree q, leaf l. -/
theorem first_at (c : Dev nD) (hR : RealArgs m c) (t : Fin cfg0.N) (p : Fin 2) (q : Fin 64) (l : Fin 128) :
    k0_pay2 (F := Ideal) (iblk m c 0 t) (iblk m c 1 t) (iblk m c 2 t) (ix3 p q l)
      = Cert.Node.sp (aX m c) (aW m c) (aB m c) (bat t p) q l := by
  have hx0 : ∀ i, ∃ r : ℝ, (iblk m c 0 t : Vec Ideal S2x64x16080 .f32) i = (r : EReal) := fun i => by
    obtain ⟨p', q', k', rfl⟩ : ∃ (p' : Fin 2) (q' : Fin 64) (k' : Fin 16080), i = ix3 p' q' k' := ⟨i 0, i 1, i 2, eq_ix3 i⟩
    rw [iblk0_apply]; exact hR.1 _
  have hx1 : ∀ i, ∃ r : ℝ, (iblk m c 1 t : Vec Ideal S16080x128 .f32) i = (r : EReal) := fun i => by
    obtain ⟨k', l', rfl⟩ : ∃ (k' : Fin 16080) (l' : Fin 128), i = ix2 k' l' := ⟨i 0, i 1, eq_ix2 i⟩
    rw [iblk1_apply]; exact hR.2 _
  refine (Cert.KernelIdeal.Pay.pay2_apply (iblk m c 0 t) (iblk m c 1 t) (iblk m c 2 t) hx0 hx1 p q l).trans ?_
  unfold Cert.Node.sp
  rw [show (fun k : Fin 16080 => (iblk m c 0 t : Vec Ideal S2x64x16080 .f32) (ix3 p q k))
        = fun k => aX m c (ix3 (bat t p) q k) from funext fun k => iblk0_apply m c t p q k,
    show (fun k : Fin 16080 => (iblk m c 1 t : Vec Ideal S16080x128 .f32) (ix2 k l))
        = fun k => aW m c (ix2 l k) from funext fun k => iblk1_apply m c t k l,
    iblk2_apply m c t 0 l]

/-- The second store of point t at (p, q, l): Node.gi at batch 2t+p, tree q, leaf l. -/
theorem second_at (c : Dev nD) (hR : RealArgs m c) (t : Fin cfg0.N) (p : Fin 2) (q : Fin 64) (l : Fin 128) :
    k0_pay1 (F := Ideal) (k0_pay3 (F := Ideal) (iblk m c 0 t) (iblk m c 1 t) (iblk m c 2 t) (iblk m c 3 t)) (ix3 p q l)
      = Cert.Node.gi (aX m c) (aW m c) (aB m c) (aC m c) (bat t p) q l := by
  refine (Cert.KernelIdeal.Pay.gini_apply (iblk m c 0 t) (iblk m c 1 t) (iblk m c 2 t) (iblk m c 3 t) p q l).trans ?_
  unfold Cert.Node.gi
  rw [first_at m c hR t p q l,
    show (fun k : Fin 16 => (iblk m c 3 t : Vec Ideal S64x16x128 .f32) (ix3 q k l))
        = fun k => aC m c (ix3 q l k) from funext fun k => iblk3_apply m c t q k l]

/-- What point t leaves in the first result's buffer, as one function of the buffer's index. -/
theorem out4_eq (c : Dev nD) (hR : RealArgs m c) (t : Fin cfg0.N) :
    out0_4 (F := Ideal) (iblk m c 0 t) (iblk m c 1 t) (iblk m c 2 t) (iblk m c 3 t)
      = fun y : S2x64x128.Idx => Cert.Node.sp (aX m c) (aW m c) (aB m c) (bat t (y 0)) (y 1) (y 2) := by
  unfold out0_4
  rw [View.canon_unit_zero hz3]
  simp only [View.ld_unit_zero (S := S2x64x16080) hz3, View.ld_unit_zero (S := S16080x128) hz2,
    View.ld_unit_zero (S := S1x128) hz2]
  funext y
  obtain ⟨p, q, l, rfl⟩ : ∃ (p : Fin 2) (q : Fin 64) (l : Fin 128), y = ix3 p q l := ⟨y 0, y 1, y 2, eq_ix3 y⟩
  exact first_at m c hR t p q l

/-- What point t leaves in the second result's buffer, as one function of the buffer's index. -/
theorem out5_eq (c : Dev nD) (hR : RealArgs m c) (t : Fin cfg0.N) :
    out0_5 (F := Ideal) (iblk m c 0 t) (iblk m c 1 t) (iblk m c 2 t) (iblk m c 3 t)
      = fun y : S2x64x128.Idx => Cert.Node.gi (aX m c) (aW m c) (aB m c) (aC m c) (bat t (y 0)) (y 1) (y 2) := by
  unfold out0_5
  rw [View.canon_unit_zero hz3]
  simp only [View.ld_unit_zero (S := S2x64x16080) hz3, View.ld_unit_zero (S := S16080x128) hz2,
    View.ld_unit_zero (S := S1x128) hz2, View.ld_unit_zero (S := S64x16x128) hz3]
  funext y
  obtain ⟨p, q, l, rfl⟩ : ∃ (p : Fin 2) (q : Fin 64) (l : Fin 128), y = ix3 p q l := ⟨y 0, y 1, y 2, eq_ix3 y⟩
  exact second_at m c hR t p q l

/-! ## What each point writes back is its block of the whole-array function -/

/-- Point t writes back block t of Node.G4 of the arguments. -/
theorem flushed4_eq (c : Dev nD) (hR : RealArgs m c) (t : Fin cfg0.N) :
    (dats m 0 c).flushed 4 t
      = ((cfg0.win 4).blk t).view.read (Elt Ideal) (Cert.Node.G4 (aX m c) (aW m c) (aB m c)) := by
  obtain ⟨-, -, -, -, ⟨e0, e1, e2⟩, -⟩ := idx_facts t
  rw [Value.flushed4, out4_eq m c hR t]
  funext j
  show Cert.Node.sp (aX m c) (aW m c) (aB m c) (bat t (j 0)) (j 1) (j 2)
    = Cert.Node.G4 (aX m c) (aW m c) (aB m c) (((cfg0.win 4).blk t).view.emb j)
  refine (Cert.Node.G4_apply (aX m c) (aW m c) (aB m c) (bat t (j 0)) (j 1) (j 2)).symm.trans ?_
  refine congrArg (Cert.Node.G4 (aX m c) (aW m c) (aB m c)) ?_
  funext a
  apply Fin.ext
  match a with
  | ⟨0, _⟩ => show 2 * t.val + (j 0).val = win0_4.index t (0 : Fin 3) * 2 + 1 * (j 0).val; rw [e0]; omega
  | ⟨1, _⟩ => show (j 1).val = win0_4.index t (1 : Fin 3) * 64 + 1 * (j 1).val; rw [e1]; omega
  | ⟨2, _⟩ => show (j 2).val = win0_4.index t (2 : Fin 3) * 128 + 1 * (j 2).val; rw [e2]; omega

/-- Point t writes back block t of Node.G5 of the arguments. -/
theorem flushed5_eq (c : Dev nD) (hR : RealArgs m c) (t : Fin cfg0.N) :
    (dats m 0 c).flushed 5 t
      = ((cfg0.win 5).blk t).view.read (Elt Ideal) (Cert.Node.G5 (aX m c) (aW m c) (aB m c) (aC m c)) := by
  obtain ⟨-, -, -, -, -, ⟨e0, e1, e2⟩⟩ := idx_facts t
  rw [Value.flushed5, out5_eq m c hR t]
  funext j
  show Cert.Node.gi (aX m c) (aW m c) (aB m c) (aC m c) (bat t (j 0)) (j 1) (j 2)
    = Cert.Node.G5 (aX m c) (aW m c) (aB m c) (aC m c) (((cfg0.win 5).blk t).view.emb j)
  refine (Cert.Node.G5_apply (aX m c) (aW m c) (aB m c) (aC m c) (bat t (j 0)) (j 1) (j 2)).symm.trans ?_
  refine congrArg (Cert.Node.G5 (aX m c) (aW m c) (aB m c) (aC m c)) ?_
  funext a
  apply Fin.ext
  match a with
  | ⟨0, _⟩ => show 2 * t.val + (j 0).val = win0_5.index t (0 : Fin 3) * 2 + 1 * (j 0).val; rw [e0]; omega
  | ⟨1, _⟩ => show (j 1).val = win0_5.index t (1 : Fin 3) * 64 + 1 * (j 1).val; rw [e1]; omega
  | ⟨2, _⟩ => show (j 2).val = win0_5.index t (2 : Fin 3) * 128 + 1 * (j 2).val; rw [e2]; omega

/-! ## The blocks cover the arrays -/

/-- An index of the first result's array is in point t's block iff each coordinate is in the block's range. -/
theorem mem_blk4 (t : Fin cfg0.N) (i : S64x64x128.Idx) :
    i ∈ ((cfg0.win 4).blk t).view.set ↔ ∀ a : Fin 3, win0_4.index t a * S2x64x128.size a ≤ (i a).val
      ∧ (i a).val < win0_4.index t a * S2x64x128.size a + S2x64x128.size a := by
  show i ∈ ((View.whole main_v3_0).slice (win0_4.rect t)).set ↔ _
  rw [View.set_slice_whole, Rect.mem_set_unit]
  exact Iff.rfl

theorem mem_blk5 (t : Fin cfg0.N) (i : S64x64x128.Idx) :
    i ∈ ((cfg0.win 5).blk t).view.set ↔ ∀ a : Fin 3, win0_5.index t a * S2x64x128.size a ≤ (i a).val
      ∧ (i a).val < win0_5.index t a * S2x64x128.size a + S2x64x128.size a := by
  show i ∈ ((View.whole main_v3_1).slice (win0_5.rect t)).set ↔ _
  rw [View.set_slice_whole, Rect.mem_set_unit]
  exact Iff.rfl

/-- The point whose block holds batch n: half of n. -/
def pointOf (i : S64x64x128.Idx) : Fin cfg0.N :=
  ⟨(i 0).val / 2, by have h : cfg0.N = 32 := N_0; have h0 : (i 0).val < 64 := (i 0).isLt; omega⟩

theorem cover4 (i : S64x64x128.Idx) :
    ∃ t : Fin cfg0.N, (cfg0.win 4).flush t = true ∧ i ∈ ((cfg0.win 4).blk t).view.set := by
  refine ⟨pointOf i, flush0_4 _, ?_⟩
  obtain ⟨-, -, -, -, ⟨e0, e1, e2⟩, -⟩ := idx_facts (pointOf i)
  have h0 : (i 0).val < 64 := (i 0).isLt
  have h1 : (i 1).val < 64 := (i 1).isLt
  have h2 : (i 2).val < 128 := (i 2).isLt
  have hp : (pointOf i).val = (i 0).val / 2 := rfl
  rw [mem_blk4]
  intro a
  match a with
  | ⟨0, _⟩ =>
    show win0_4.index (pointOf i) (0 : Fin 3) * 2 ≤ (i 0).val ∧ (i 0).val < win0_4.index (pointOf i) (0 : Fin 3) * 2 + 2
    rw [e0, hp]; omega
  | ⟨1, _⟩ =>
    show win0_4.index (pointOf i) (1 : Fin 3) * 64 ≤ (i 1).val ∧ (i 1).val < win0_4.index (pointOf i) (1 : Fin 3) * 64 + 64
    rw [e1]; omega
  | ⟨2, _⟩ =>
    show win0_4.index (pointOf i) (2 : Fin 3) * 128 ≤ (i 2).val ∧ (i 2).val < win0_4.index (pointOf i) (2 : Fin 3) * 128 + 128
    rw [e2]; omega

theorem cover5 (i : S64x64x128.Idx) :
    ∃ t : Fin cfg0.N, (cfg0.win 5).flush t = true ∧ i ∈ ((cfg0.win 5).blk t).view.set := by
  refine ⟨pointOf i, flush0_5 _, ?_⟩
  obtain ⟨-, -, -, -, -, ⟨e0, e1, e2⟩⟩ := idx_facts (pointOf i)
  have h0 : (i 0).val < 64 := (i 0).isLt
  have h1 : (i 1).val < 64 := (i 1).isLt
  have h2 : (i 2).val < 128 := (i 2).isLt
  have hp : (pointOf i).val = (i 0).val / 2 := rfl
  rw [mem_blk5]
  intro a
  match a with
  | ⟨0, _⟩ =>
    show win0_5.index (pointOf i) (0 : Fin 3) * 2 ≤ (i 0).val ∧ (i 0).val < win0_5.index (pointOf i) (0 : Fin 3) * 2 + 2
    rw [e0, hp]; omega
  | ⟨1, _⟩ =>
    show win0_5.index (pointOf i) (1 : Fin 3) * 64 ≤ (i 1).val ∧ (i 1).val < win0_5.index (pointOf i) (1 : Fin 3) * 64 + 64
    rw [e1]; omega
  | ⟨2, _⟩ =>
    show win0_5.index (pointOf i) (2 : Fin 3) * 128 ≤ (i 2).val ∧ (i 2).val < win0_5.index (pointOf i) (2 : Fin 3) * 128 + 128
    rw [e2]; omega

/-! ## The arrays after the run, and the run -/

theorem final4 (c : Dev nD) (hR : RealArgs m c) :
    (dats m 0 c).arrAt 4 cfg0.N = Cert.Node.G4 (aX m c) (aW m c) (aB m c) :=
  (dats m 0 c).arrAt_eq_of_cover 4 (Cert.Node.G4 (aX m c) (aW m c) (aB m c)) (fun t _ => flushed4_eq m c hR t) cover4

theorem final5 (c : Dev nD) (hR : RealArgs m c) :
    (dats m 0 c).arrAt 5 cfg0.N = Cert.Node.G5 (aX m c) (aW m c) (aB m c) (aC m c) :=
  (dats m 0 c).arrAt_eq_of_cover 5 (Cert.Node.G5 (aX m c) (aW m c) (aB m c) (aC m c)) (fun t _ => flushed5_eq m c hR t) cover5

/-- The run, read: over real entries of the input and of the weights on every device, each result array ends at
    its function of the argument arrays, and the arguments end unchanged. -/
theorem run (hR : ∀ c : Dev nD, RealArgs m c) :
    θ_run defs (onTc (τ := τ) (main (F := Ideal))) ⟨m, fun _ => 0, ρ⟩ fun r => ∀ c : Dev nD,
      r.2.mem ((c : Thread nD τ).loc main_v3_0) = Cert.Node.G4 (aX m c) (aW m c) (aB m c)
      ∧ r.2.mem ((c : Thread nD τ).loc main_v3_1) = Cert.Node.G5 (aX m c) (aW m c) (aB m c) (aC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hR c)), (h c).2.1.trans (final5 m c (hR c)), (h c).2.2⟩)
    (Value.run_blocks m ρ)

end Cert.KernelIdeal.Arr

end
-- ==== Proof.RefBridge.lean ====
/-
  The reference's two results, read one stage at a time at coordinates, are the specification's functions.

  The reference forms the product of the input with the weights' rows directly, adds the bias and clips: entry
  (b, t, l) of the first result is Node.sp. It then lays that value and the contributions over [64,64,128,16] with
  the class axis LAST, takes the largest score along that axis from the word of -inf (and once more against that
  word: Node.max_fold), subtracts it, exponentiates, sums along the axis from zero, divides, and sums one less
  the squares along the axis from zero: entry (b, t, l) of the second result is Node.gi.
-/
import proofs.«129472_j53858889892406_2_alg».proof.Proof.Gen.ReferenceIdeal.Read
import proofs.«129472_j53858889892406_2_alg».proof.Proof.Spec
import proofs.«129472_j53858889892406_2_alg».proof.Proof.LibStack4

noncomputable section

open scoped BigOperators

namespace Cert.ReferenceIdeal.Bridge

open Cert.ReferenceIdeal Cert.ReferenceIdeal.Gen Cert.ReferenceIdeal.Read Idealize.ShloMosaic
  Idealize.ShloMosaic.ValueIdx

/-- Two rank-3 indices with equal coordinates are equal; likewise at ranks 1, 2 and 4. -/
macro "coords1" : tactic => `(tactic| (funext a; apply Fin.ext; match a with | ⟨0, _⟩ => rfl))
macro "coords2" : tactic => `(tactic| (funext a; apply Fin.ext; match a with | ⟨0, _⟩ => rfl | ⟨1, _⟩ => rfl))
macro "coords3" : tactic =>
  `(tactic| (funext a; apply Fin.ext; match a with | ⟨0, _⟩ => rfl | ⟨1, _⟩ => rfl | ⟨2, _⟩ => rfl))
macro "coords4" : tactic =>
  `(tactic| (funext a; apply Fin.ext; match a with | ⟨0, _⟩ => rfl | ⟨1, _⟩ => rfl | ⟨2, _⟩ => rfl | ⟨3, _⟩ => rfl))

variable (x0 : (⟨S64x64x16080, .f32⟩ : BufTy).Contents (Elt Ideal)) (x1 : (⟨S128x16080, .f32⟩ : BufTy).Contents (Elt Ideal))
  (x2 : (⟨S128, .f32⟩ : BufTy).Contents (Elt Ideal)) (x3 : (⟨S64x128x16, .f32⟩ : BufTy).Contents (Elt Ideal))

/-! ## The first result -/

/-- The clipped affine value at (b, t, l). -/
theorem v4_at (b t : Fin 64) (l : Fin 128) :
    val_main_v4 (F := Ideal) x0 x1 x2 (ix3 b t l) = Cert.Node.sp x0 x1 x2 b t l := by
  rw [val_main_v4_apply, val_main_call0_v4_apply, val_main_call0_v3_apply, val_main_cst_0_apply,
    val_main_call0_v2_apply, val_main_call0_v1_apply, val_main_call0_v0_apply, val_main_cst_apply,
    val_main_v3_apply, val_main_v0_apply, val_main_v2_apply, val_main_v1_apply]
  have hl : ∀ k : Fin 16080, lidx_main_v0 (ix3 b t l) k = ix3 b t k := fun k => by coords3
  have hr : ∀ k : Fin 16080, ridx_main_v0 (ix3 b t l) k = ix2 l k := fun k => by coords2
  have hb : idx_main_v1 (idx_main_v2 (ix3 b t l)) = ix1 l := by coords1
  simp only [hl, hr, hb]
  rfl

/-! ## The second result, stage by stage -/

/-- The score of class k at (b, t, l). -/
theorem v9_at (b t : Fin 64) (l : Fin 128) (k : Fin 16) :
    val_main_v9 (F := Ideal) x0 x1 x2 x3 (ix4 b t l k) = Cert.Node.sp x0 x1 x2 b t l * x3 (ix3 t l k) := by
  rw [val_main_v9_apply, val_main_v7_apply, val_main_v5_apply, val_main_v8_apply, val_main_v6_apply,
    show idx_main_v5 (idx_main_v7 (ix4 b t l k)) = ix3 b t l from by coords3,
    show idx_main_v6 (idx_main_v8 (ix4 b t l k)) = ix3 t l k from by coords3, v4_at]
  rfl

/-- The largest score at (b, t, l), after the second maximum against the word of -inf. -/
theorem v12_at (b t : Fin 64) (l : Fin 128) :
    val_main_v12 (F := Ideal) x0 x1 x2 x3 (ix3 b t l)
      = Cert.Node.top (Cert.Node.sp x0 x1 x2 b t l) (fun k => x3 (ix3 t l k)) := by
  have h10 : val_main_v10 (F := Ideal) x0 x1 x2 x3 (ix3 b t l)
      = Cert.Node.top (Cert.Node.sp x0 x1 x2 b t l) (fun k => x3 (ix3 t l k)) := by
    unfold val_main_v10
    refine (Cert.LibStack4.hostMax_axis3 _ _ reducesTo_S64x64x128x16_S64x64x128_d3 (by decide) h_S_ b t l).trans ?_
    rw [show (fun k : Fin 16 => val_main_v9 (F := Ideal) x0 x1 x2 x3 (ix4 b t l k))
        = fun k => Cert.Node.sp x0 x1 x2 b t l * x3 (ix3 t l k) from funext fun k => v9_at x0 x1 x2 x3 b t l k]
    rfl
  rw [val_main_v12_apply, val_main_v11_apply, val_main_cst_2_apply, h10]
  exact Cert.Node.max_fold Finset.univ Cert.Node.negInf _

/-- The weight of class k at (b, t, l). -/
theorem v16_at (b t : Fin 64) (l : Fin 128) (k : Fin 16) :
    val_main_v16 (F := Ideal) x0 x1 x2 x3 (ix4 b t l k)
      = Cert.Node.weight (Cert.Node.sp x0 x1 x2 b t l) (fun k' => x3 (ix3 t l k')) k := by
  rw [val_main_v16_apply, val_main_v15_apply, val_main_v14_apply, val_main_v13_apply,
    show idx_main_v13 (idx_main_v14 (ix4 b t l k)) = ix3 b t l from by coords3, v9_at, v12_at]
  rfl

/-- The weights' sum at (b, t, l). -/
theorem v17_at (b t : Fin 64) (l : Fin 128) :
    val_main_v17 (F := Ideal) x0 x1 x2 x3 (ix3 b t l)
      = ∑ k : Fin 16, Cert.Node.weight (Cert.Node.sp x0 x1 x2 b t l) (fun k' => x3 (ix3 t l k')) k := by
  rw [val_main_v17_apply, show (val_main_cst_3 (F := Ideal)) (Shape.Idx.first h_S_) = 0 from Ideal.ofBits_zero_f32,
    zero_add]
  refine Finset.sum_congr rfl fun k _ => ?_
  rw [show idx_main_v17 (ix3 b t l) k = ix4 b t l k from by coords4, v16_at]

/-- The Gini term at (b, t, l). -/
theorem v24_at (b t : Fin 64) (l : Fin 128) :
    val_main_v24 (F := Ideal) x0 x1 x2 x3 (ix3 b t l) = Cert.Node.gi x0 x1 x2 x3 b t l := by
  rw [val_main_v24_apply, show (val_main_cst_5 (F := Ideal)) (Shape.Idx.first h_S_) = 0 from Ideal.ofBits_zero_f32,
    zero_add]
  unfold Cert.Node.gi Cert.Node.gini
  refine Finset.sum_congr rfl fun k _ => ?_
  rw [show idx_main_v24 (ix3 b t l) k = ix4 b t l k from by coords4, val_main_v23_apply, val_main_v22_apply,
    val_main_cst_4_apply, val_main_v21_apply, val_main_v20_apply, val_main_v19_apply, val_main_v18_apply,
    show idx_main_v18 (idx_main_v19 (ix4 b t l k)) = ix3 b t l from by coords3, v16_at, v17_at]
  rfl

/-! ## The two results as whole arrays -/

theorem ref_G4 : val_main_v4 (F := Ideal) x0 x1 x2 = Cert.Node.G4 x0 x1 x2 := by
  funext i
  obtain ⟨b, t, l, rfl⟩ : ∃ (b t : Fin 64) (l : Fin 128), i = ix3 b t l := ⟨i 0, i 1, i 2, eq_ix3 i⟩
  exact v4_at x0 x1 x2 b t l

theorem ref_G5 : val_main_v24 (F := Ideal) x0 x1 x2 x3 = Cert.Node.G5 x0 x1 x2 x3 := by
  funext i
  obtain ⟨b, t, l, rfl⟩ : ∃ (b t : Fin 64) (l : Fin 128), i = ix3 b t l := ⟨i 0, i 1, i 2, eq_ix3 i⟩
  exact v24_at x0 x1 x2 x3 b t l

end Cert.ReferenceIdeal.Bridge

end
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.Finite.lean ====
/-
  The precondition read back: every entry of the input and of the weights is a real number.

  The precondition is the conjunction of four tests, one per argument array, each "every entry's absolute value
  lies below +inf", and the claim says the conjunction is 1. A conjunction that is 1 has both conjuncts 1, and a
  test that is 1 says every entry of its array is a real number.
-/
import proofs.«129472_j53858889892406_2_alg».proof.Pre_finite_inputs
import proofs.«129472_j53858889892406_2_alg».proof.Proof.LibPreDecode
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

variable [Facts]

/-- The scalar shape has one index. -/
instance : Subsingleton S_.Idx := ⟨fun _ _ => funext fun d => d.elim0⟩

/-- Under the precondition every entry of the input and every entry of the weights is a real number. -/
theorem real_args (a0 : FVec Ideal S64x64x16080 .f32) (a1 : FVec Ideal S128x16080 .f32) (a2 : FVec Ideal S128 .f32)
    (a3 : FVec Ideal S64x128x16 .f32) (h : fn (F := Ideal) a0 a1 a2 a3 = fun _ => 1#1) :
    (∀ i, ∃ r : ℝ, a0 i = (r : EReal)) ∧ (∀ i, ∃ r : ℝ, a1 i = (r : EReal)) := by
  have h0 := congrFun h ix0
  unfold fn fn_part1 at h0
  dsimp only at h0
  obtain ⟨h123, -⟩ := IntOp.andi_eq_one.1 h0
  obtain ⟨h12, -⟩ := IntOp.andi_eq_one.1 h123
  obtain ⟨h1, h2⟩ := IntOp.andi_eq_one.1 h12
  exact ⟨Cert.LibPreDecode.all_real a0 _ (fun _ => rfl) _ _ _ ix0 h1,
    Cert.LibPreDecode.all_real a1 _ (fun _ => rfl) _ _ _ ix0 h2⟩

end Cert.Pre_finite_inputs.Decode

end
-- ==== Proof.lean ====
/-
  A decision-node layer: a linear map with bias cut to [-1, 1], then for every (tree, leaf) the Gini term of the
  softmax of that value times the leaf's class contributions. The kernel against its reference, at the extended
  reals.

  First result, entry (b, t, l): min 1 (max (-1) (∑ k, x(b,t,k) * W(l,k) + bias(l))). The kernel forms the product in
  three passes with the operands and the remainders x - x and W - W (a change of float format is the identity
  here, so the "high part" of an operand is the operand); over real entries the remainders vanish and the three
  passes are the one product. This is where the precondition is used: every entry of x and of W is a real number.
  Second result, entry (b, t, l): with s the first result there and c k the contribution of class k, the sum over k
  of 1 - p k * p k, where p k = exp (s * c k - max) / ∑ exp (s * c k' - max). The kernel keeps the classes on the third
  of four axes and the reference on the last; both take the maximum and the sums along that axis, so entry by
  entry they are one expression. The reference takes the maximum once more against -inf, which changes nothing.

  The kernel works on two batches per grid point; each point's block of a result is that block of the
  whole-array function, and the 32 blocks cover the result arrays. The idealized kernel reads two narrow-then-widen
  round trips as the identity, which they are on the extended reals; each is the rule's statement.
-/
import proofs.«129472_j53858889892406_2_alg».proof.Defs
import proofs.«129472_j53858889892406_2_alg».proof.Proof.Gen.Kernel
import proofs.«129472_j53858889892406_2_alg».proof.Proof.Gen.Kernel.Skeleton
import proofs.«129472_j53858889892406_2_alg».proof.Proof.Gen.Kernel.Launch
import proofs.«129472_j53858889892406_2_alg».proof.Proof.Gen.Kernel.Points
import proofs.«129472_j53858889892406_2_alg».proof.Proof.Gen.Kernel.Frame
import proofs.«129472_j53858889892406_2_alg».proof.Proof.Gen.KernelIdeal
import proofs.«129472_j53858889892406_2_alg».proof.Proof.Gen.KernelIdeal.Skeleton
import proofs.«129472_j53858889892406_2_alg».proof.Proof.Gen.KernelIdeal.Launch
import proofs.«129472_j53858889892406_2_alg».proof.Proof.Gen.KernelIdeal.Points
import proofs.«129472_j53858889892406_2_alg».proof.Proof.Gen.KernelIdeal.Frame
import proofs.«129472_j53858889892406_2_alg».proof.Proof.Gen.KernelIdeal.Value
import proofs.«129472_j53858889892406_2_alg».proof.Proof.Gen.ReferenceIdeal
import proofs.«129472_j53858889892406_2_alg».proof.Proof.Gen.ReferenceIdeal.Run
import proofs.«129472_j53858889892406_2_alg».proof.Proof.Gen.ReferenceIdeal.Read
import proofs.«129472_j53858889892406_2_alg».proof.Proof.Gen.Pre_finite_inputs
import proofs.«129472_j53858889892406_2_alg».proof.Proof.KernelArr
import proofs.«129472_j53858889892406_2_alg».proof.Proof.RefBridge
import proofs.«129472_j53858889892406_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The two places where the idealized kernel differs from the word-level one: narrowing to the 16-bit format and
    widening back is the identity on the extended reals, for the input block's rows and for the transposed weights. -/
theorem preserves : Cert.preserves_Kernel_KernelIdeal :=
  ⟨IdealRules.truncf_extf.statement Cert.KernelIdeal.S128x16080 .f32 .bf16,
    IdealRules.truncf_extf.statement Cert.KernelIdeal.S16080x128 .f32 .bf16⟩

/-- Both programs end with the first result at Node.G4 and the second at Node.G5 of the argument arrays. -/
theorem algebraic : Cert.algebraic_KernelIdeal_ReferenceIdeal := by
  intro m ρ m' ρ' hpre hagree
  have hR : ∀ c, Cert.KernelIdeal.Arr.RealArgs m c := fun c =>
    Cert.Pre_finite_inputs.Decode.real_args _ _ _ _ (hpre c)
  refine ⟨fun c => Cert.Node.G4 (Cert.KernelIdeal.Arr.aX m c) (Cert.KernelIdeal.Arr.aW m c) (Cert.KernelIdeal.Arr.aB m c),
    fun c => Cert.Node.G5 (Cert.KernelIdeal.Arr.aX m c) (Cert.KernelIdeal.Arr.aW m c) (Cert.KernelIdeal.Arr.aB m c)
      (Cert.KernelIdeal.Arr.aC m c),
    Cert.KernelIdeal.Arr.run m ρ hR, ?_⟩
  refine (θ_run Cert.ReferenceIdeal.defs _ _).mono (fun _ h c => ?_)
    (Cert.ReferenceIdeal.Value.run (F := Ideal) m' ρ')
  obtain ⟨g0, g1, g2, g3⟩ := hagree c
  refine ⟨(h c).1.trans ?_, (h c).2.1.trans ?_, (h c).2.2⟩
  · rw [Cert.ReferenceIdeal.Read.val_main_v4_eq, Cert.ReferenceIdeal.Bridge.ref_G4, g0, g1, g2]
  · rw [Cert.ReferenceIdeal.Read.val_main_v24_eq, Cert.ReferenceIdeal.Bridge.ref_G5, g0, g1, g2, g3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
